-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x128 : Shape := ⟨3, ![4, 4096, 128]⟩
abbrev S4x4096x4096 : Shape := ⟨3, ![4, 4096, 4096]⟩
abbrev S128x128 : Shape := ⟨2, ![128, 128]⟩
abbrev S128 : Shape := ⟨1, ![128]⟩
abbrev S_ : Shape := ⟨0, ![]⟩

class Facts : Prop where
  bcast_S_S4x4096x128 : S_.BroadcastsInDim S4x4096x128 (![] : Fin 0 → Fin S4x4096x128.rank)
  reducesTo_S4x4096x128_S_d0_1_2 : S4x4096x128.ReducesTo [0, 1, 2] S_
  h_S_ : 0 < S_.numel
  bcast_S_S4x4096x4096 : S_.BroadcastsInDim S4x4096x4096 (![] : Fin 0 → Fin S4x4096x4096.rank)
  reducesTo_S4x4096x4096_S_d0_1_2 : S4x4096x4096.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S4x4096x128 .f32) (main_arg1 : FVec F S4x4096x4096 .f32) (main_arg2 : FVec F S128x128 .f32) (main_arg3 : FVec F S128 .f32) : IVec S_ 1 :=
  let main_v0 : FVec F S4x4096x128 .f32 := Host.absf main_arg0
  let main_cst : FVec F S_ .f32 := constant S_ .f32 0x7F800000#32
  let main_v1 : FVec F S4x4096x128 .f32 := broadcastInDim S4x4096x128 ![] bcast_S_S4x4096x128 main_cst
  let main_v2 : IVec S4x4096x128 1 := cmpf .olt main_v0 main_v1
  let main_c : IVec S_ 1 := constantI S_ 1 1#1
  let main_v3 : IVec S_ 1 := (fun x v => Host.reduce IntOp.andi x v reducesTo_S4x4096x128_S_d0_1_2 h_S_) main_v2 main_c
  let main_v4 : FVec F S4x4096x4096 .f32 := Host.absf main_arg1
  let main_cst_0 : FVec F S_ .f32 := constant S_ .f32 0x7F800000#32
  let main_v5 : FVec F S4x4096x4096 .f32 := broadcastInDim S4x4096x4096 ![] bcast_S_S4x4096x4096 main_cst_0
  let main_v6 : IVec S4x4096x4096 1 := cmpf .olt main_v4 main_v5
  let main_c_1 : IVec S_ 1 := constantI S_ 1 1#1
  let main_v7 : IVec S_ 1 := (fun x v => Host.reduce IntOp.andi x v reducesTo_S4x4096x4096_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S4x4096x128 : Shape := ⟨3, ![4, 4096, 128]⟩
abbrev S4x4096x4096 : Shape := ⟨3, ![4, 4096, 4096]⟩
abbrev S128x128 : Shape := ⟨2, ![128, 128]⟩
abbrev S128 : Shape := ⟨1, ![128]⟩
abbrev S1x128 : Shape := ⟨2, ![1, 128]⟩
abbrev S1x512x4096 : Shape := ⟨3, ![1, 512, 4096]⟩
abbrev S1x4096x128 : Shape := ⟨3, ![1, 4096, 128]⟩
abbrev S1x512x128 : Shape := ⟨3, ![1, 512, 128]⟩
abbrev S512x4096 : Shape := ⟨2, ![512, 4096]⟩
abbrev S4096x128 : Shape := ⟨2, ![4096, 128]⟩
abbrev S512x128 : Shape := ⟨2, ![512, 128]⟩

abbrev nBuf : Space → Nat
  | .hbm => 6
  | .vmem => 8
  | .smem => 0
  | _ => 0

abbrev bufTy : (tb : Table) → Fin (tcTables nBuf tb) → BufTy
  | .hbm, ⟨0, _⟩ => ⟨S4x4096x128, .f32⟩
  | .hbm, ⟨1, _⟩ => ⟨S4x4096x4096, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S4x4096x128, .f32⟩
  | .local _ .vmem, ⟨0, _⟩ => ⟨S1x512x4096, .f32⟩
  | .local _ .vmem, ⟨1, _⟩ => ⟨S1x512x4096, .f32⟩
  | .local _ .vmem, ⟨2, _⟩ => ⟨S1x4096x128, .f32⟩
  | .local _ .vmem, ⟨3, _⟩ => ⟨S1x4096x128, .f32⟩
  | .local _ .vmem, ⟨4, _⟩ => ⟨S128x128, .f32⟩
  | .local _ .vmem, ⟨5, _⟩ => ⟨S1x128, .f32⟩
  | .local _ .vmem, ⟨6, _⟩ => ⟨S1x512x128, .f32⟩
  | .local _ .vmem, ⟨7, _⟩ => ⟨S1x512x128, .f32⟩
  | _, _ => ⟨S4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S128_S1x128 : S128.ShapeCasts S1x128
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  bitsLt_bf16_f32 : FTy.bits .bf16 < FTy.bits .f32
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  dot_S512x4096_S4096x128_S512x128_1_0_0_1_n_n_wf : DotDims.WF S512x4096 S4096x128 S512x128 [1] [0] [0] [1] [] []
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S4x4096x4096.size a
  hwx0_0 : ∀ i : grid0.Coords, EltTy.bits .f32 = 32 ∨ (Rect.block (s := S4x4096x4096) S1x512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x128.size a ≤ S4x4096x128.size a
  hwx0_1 : ∀ i : grid0.Coords, EltTy.bits .f32 = 32 ∨ (Rect.block (s := S4x4096x128) S1x4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x128.size a ≤ S4x4096x128.size a
  hwx0_4 : ∀ i : grid0.Coords, EltTy.bits .f32 = 32 ∨ (Rect.block (s := S4x4096x128) S1x512x128.size (cc0_transform_4 i) (hinb0_4 i)).WholeWords (EltTy.packing .f32)

variable [Facts₀]

def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_arg1) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x128 : Shape := ⟨3, ![4, 4096, 128]⟩
abbrev S4x4096x4096 : Shape := ⟨3, ![4, 4096, 4096]⟩
abbrev S128x128 : Shape := ⟨2, ![128, 128]⟩
abbrev S128 : Shape := ⟨1, ![128]⟩
abbrev S1x1x128 : Shape := ⟨3, ![1, 1, 128]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S4x4096x4096, .f32⟩
  | .hbm, ⟨2, _⟩ => ⟨S128x128, .f32⟩
  | .hbm, ⟨3, _⟩ => ⟨S128, .f32⟩
  | .hbm, ⟨4, _⟩ => ⟨S4x4096x128, .f32⟩
  | .hbm, ⟨5, _⟩ => ⟨S4x4096x128, .f32⟩
  | .hbm, ⟨6, _⟩ => ⟨S1x1x128, .f32⟩
  | .hbm, ⟨7, _⟩ => ⟨S4x4096x128, .f32⟩
  | .hbm, ⟨8, _⟩ => ⟨S4x4096x128, .f32⟩
  | .hbm, ⟨9, _⟩ => ⟨S_, .f32⟩
  | .hbm, ⟨10, _⟩ => ⟨S4x4096x128, .f32⟩
  | .hbm, ⟨11, _⟩ => ⟨S4x4096x128, .f32⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S4x4096x128_0_1_2 : S1x1x128.BroadcastsInDim S4x4096x128 (![0, 1, 2] : Fin 3 → Fin S4x4096x128.rank)
  bcast_S_S4x4096x128 : S_.BroadcastsInDim S4x4096x128 (![] : Fin 0 → Fin S4x4096x128.rank)
  dot_S4x4096x4096_S4x4096x128_S4x4096x128_2_1_1_2_0_0_wf : DotDims.WF S4x4096x4096 S4x4096x128 S4x4096x128 [2] [1] [1] [2] [0] [0]
  dot_S4x4096x128_S128x128_S4x4096x128_2_0_01_1_n_n_wf : DotDims.WF S4x4096x128 S128x128 S4x4096x128 [2] [0] [0, 1] [1] [] []

variable [Facts₀]

def dot_S4x4096x4096_S4x4096x128_S4x4096x128_2_1_1_2_0_0 : DotDims S4x4096x4096 S4x4096x128 S4x4096x128 where
  lhsContracting := [2]
  rhsContracting := [1]
  lhsNonContracting := [1]
  rhsNonContracting := [2]
  lhsBatch := [0]
  rhsBatch := [0]
  wf := dot_S4x4096x4096_S4x4096x128_S4x4096x128_2_1_1_2_0_0_wf
def dot_S4x4096x128_S128x128_S4x4096x128_2_0_01_1_n_n : DotDims S4x4096x128 S128x128 S4x4096x128 where
  lhsContracting := [2]
  rhsContracting := [0]
  lhsNonContracting := [0, 1]
  rhsNonContracting := [1]
  lhsBatch := []
  rhsBatch := []
  wf := dot_S4x4096x128_S128x128_S4x4096x128_2_0_01_1_n_n_wf

class Facts : Prop extends Facts₀ where

variable [Facts]
-- ==== Proof.GraphConv.lean ====
/-
  One graph-convolution layer over a batch of 4 graphs of 4096 nodes with 128 features in and out, as a function on
  the extended reals. Node `n` of graph `b` first gathers its neighbours' features weighted by the adjacency row,
  `g[b,n,d] = ∑ₖ A[b,n,k] · X[b,k,d]`; the gathered row goes through the dense map, `∑_d g[b,n,d] · W[d,f]`; the bias
  `β[f]` is added and the result rectified, `max(·, 0)`. The nesting of the two sums is part of the definition: the
  inner sum is formed first and multiplied by `W` as one number, so no sum is ever redistributed and nothing here
  depends on the entries being finite.
-/
import Idealize.ShloMosaic.PureOps.Ideal
import Idealize.ShloMosaic.Lib.ValueIdx

noncomputable section

namespace Cert.GraphConv

open Idealize.ShloMosaic Idealize.ShloMosaic.ValueIdx

/-- The gathered feature `d` of node `n` in graph `b`: the adjacency row `A[b,n,·]` against column `d` of the
    graph's feature table. -/
def gathered (X : FVec Ideal ⟨3, ![4, 4096, 128]⟩ .f32) (A : FVec Ideal ⟨3, ![4, 4096, 4096]⟩ .f32)
    (b : Fin 4) (n : Fin 4096) (d : Fin 128) : EReal :=
  ∑ k : Fin 4096, A (ix3 b n k) * X (ix3 b k d)

/-- The layer's output feature `f` of node `n` in graph `b`. The zero is kept as the f32 word of `+0.0`, the
    spelling both programs use, so it is never evaluated. -/
def layerAt (X : FVec Ideal ⟨3, ![4, 4096, 128]⟩ .f32) (A : FVec Ideal ⟨3, ![4, 4096, 4096]⟩ .f32)
    (W : FVec Ideal ⟨2, ![128, 128]⟩ .f32) (β : FVec Ideal ⟨1, ![128]⟩ .f32)
    (b : Fin 4) (n : Fin 4096) (f : Fin 128) : EReal :=
  max ((∑ d : Fin 128, gathered X A b n d * W (ix2 d f)) + β (ix1 f)) (Ideal.ofBits .f32 0x00000000#32)

/-- The layer as one array `[4, 4096, 128]`, index by index. -/
def layer (X : FVec Ideal ⟨3, ![4, 4096, 128]⟩ .f32) (A : FVec Ideal ⟨3, ![4, 4096, 4096]⟩ .f32)
    (W : FVec Ideal ⟨2, ![128, 128]⟩ .f32) (β : FVec Ideal ⟨1, ![128]⟩ .f32) : FVec Ideal ⟨3, ![4, 4096, 128]⟩ .f32 :=
  fun i => layerAt X A W β (i 0) (i 1) (i 2)

theorem layer_ix3 (X : FVec Ideal ⟨3, ![4, 4096, 128]⟩ .f32) (A : FVec Ideal ⟨3, ![4, 4096, 4096]⟩ .f32)
    (W : FVec Ideal ⟨2, ![128, 128]⟩ .f32) (β : FVec Ideal ⟨1, ![128]⟩ .f32) (b : Fin 4) (n : Fin 4096) (f : Fin 128) :
    layer X A W β (ix3 b n f) = layerAt X A W β b n f := rfl

end Cert.GraphConv

end
-- ==== Proof.Body.lean ====
/-
  The kernel body's arithmetic, read at one index. The body loads a [1, 512, 4096] block of adjacency rows, the
  [1, 4096, 128] feature table of the block's graph, the [128, 128] dense map and the bias as one row [1, 128]; it
  multiplies rows by table (contracting 4096 positions), the result by the dense map (contracting 128), adds the bias
  to every row and rectifies. On the extended reals each product into a zero accumulator is the plain finite sum of
  products, so at row `r`, column `f` the stored value is
  `max(∑_d (∑ₖ a[0,r,k] · x[0,k,d]) · w[d,f] + β[0,f], 0)`.
-/
import proofs.«175395_j90323162235537_2_alg».proof.Proof.Gen.KernelIdeal.Skeleton
import proofs.«175395_j90323162235537_2_alg».proof.Proof.GraphConv
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The two matrix products, read at an index

Each contracts ONE axis of each operand and has no batch axis: at output (r, c) and contracted position k the left
operand is read at (r, k) and the right at (k, c). -/

theorem gather_lhs0 (i : S512x128.Idx) (q : dot_S512x4096_S4096x128_S512x128_1_0_0_1_n_n.contr.Idx) : (dot_S512x4096_S4096x128_S512x128_1_0_0_1_n_n.lhsIdx i q 0).val = (i 0).val := by
  unfold DotDims.lhsIdx
  rw [dif_neg (show ¬(0 : Fin S512x4096.rank) ∈ dot_S512x4096_S4096x128_S512x128_1_0_0_1_n_n.lhsBatch by decide), dif_pos (show (0 : Fin S512x4096.rank) ∈ dot_S512x4096_S4096x128_S512x128_1_0_0_1_n_n.lhsNonContracting by decide)]
  rfl
theorem gather_lhs1 (i : S512x128.Idx) (q : dot_S512x4096_S4096x128_S512x128_1_0_0_1_n_n.contr.Idx) : (dot_S512x4096_S4096x128_S512x128_1_0_0_1_n_n.lhsIdx i q 1).val = (q ⟨0, by decide⟩).val :=
  dot_S512x4096_S4096x128_S512x128_1_0_0_1_n_n.lhsIdx_val_of_single rfl i q
theorem gather_rhs0 (i : S512x128.Idx) (q : dot_S512x4096_S4096x128_S512x128_1_0_0_1_n_n.contr.Idx) : (dot_S512x4096_S4096x128_S512x128_1_0_0_1_n_n.rhsIdx i q 0).val = (q ⟨0, by decide⟩).val :=
  dot_S512x4096_S4096x128_S512x128_1_0_0_1_n_n.rhsIdx_val_of_single rfl i q
theorem gather_rhs1 (i : S512x128.Idx) (q : dot_S512x4096_S4096x128_S512x128_1_0_0_1_n_n.contr.Idx) : (dot_S512x4096_S4096x128_S512x128_1_0_0_1_n_n.rhsIdx i q 1).val = (i 1).val := by
  unfold DotDims.rhsIdx
  rw [dif_neg (show ¬(1 : Fin S4096x128.rank) ∈ dot_S512x4096_S4096x128_S512x128_1_0_0_1_n_n.rhsBatch by decide), dif_pos (show (1 : Fin S4096x128.rank) ∈ dot_S512x4096_S4096x128_S512x128_1_0_0_1_n_n.rhsNonContracting by decide)]
  rfl

/-- The first product, a [512, 4096] block of adjacency rows against a [4096, 128] feature table into a zero
    accumulator, read at row `r`, column `d`: the plain sum over the 4096 contracted positions. -/
theorem gather_apply (a : FVec Ideal S512x4096 .bf16) (x : FVec Ideal S4096x128 .bf16) (r : Fin 512) (d : Fin 128) :
    matmul dot_S512x4096_S4096x128_S512x128_1_0_0_1_n_n none a x (constant (F := Ideal) S512x128 .f32 0x00000000#32) (ix2 r d)
      = ∑ k : Fin 4096, a (ix2 r k) * x (ix2 k d) := by
  refine (Ideal.matmul_constant_zero_apply dot_S512x4096_S4096x128_S512x128_1_0_0_1_n_n none a x (ix2 r d)).trans ?_
  rw [← Equiv.sum_comp (contrEquiv1 dot_S512x4096_S4096x128_S512x128_1_0_0_1_n_n 4096 rfl rfl).symm]
  refine Finset.sum_congr rfl fun k _ => ?_
  have hk := contrEquiv1_symm_val dot_S512x4096_S4096x128_S512x128_1_0_0_1_n_n 4096 rfl rfl k
  have el : dot_S512x4096_S4096x128_S512x128_1_0_0_1_n_n.lhsIdx (ix2 r d) ((contrEquiv1 dot_S512x4096_S4096x128_S512x128_1_0_0_1_n_n 4096 rfl rfl).symm k) = ix2 r k := funext fun ax => Fin.ext (by
    match ax with
    | ⟨0, _⟩ => exact gather_lhs0 _ _
    | ⟨1, _⟩ => exact (gather_lhs1 _ _).trans hk)
  have er : dot_S512x4096_S4096x128_S512x128_1_0_0_1_n_n.rhsIdx (ix2 r d) ((contrEquiv1 dot_S512x4096_S4096x128_S512x128_1_0_0_1_n_n 4096 rfl rfl).symm k) = ix2 k d := funext fun ax => Fin.ext (by
    match ax with
    | ⟨0, _⟩ => exact (gather_rhs0 _ _).trans hk
    | ⟨1, _⟩ => exact gather_rhs1 _ _)
  rw [el, er]

theorem dense_lhs0 (i : S512x128.Idx) (q : dot_S512x128_S128x128_S512x128_1_0_0_1_n_n.contr.Idx) : (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem dense_lhs1 (i : S512x128.Idx) (q : dot_S512x128_S128x128_S512x128_1_0_0_1_n_n.contr.Idx) : (dot_S512x128_S128x128_S512x128_1_0_0_1_n_n.lhsIdx i q 1).val = (q ⟨0, by decide⟩).val :=
  dot_S512x128_S128x128_S512x128_1_0_0_1_n_n.lhsIdx_val_of_single rfl i q
theorem dense_rhs0 (i : S512x128.Idx) (q : dot_S512x128_S128x128_S512x128_1_0_0_1_n_n.contr.Idx) : (dot_S512x128_S128x128_S512x128_1_0_0_1_n_n.rhsIdx i q 0).val = (q ⟨0, by decide⟩).val :=
  dot_S512x128_S128x128_S512x128_1_0_0_1_n_n.rhsIdx_val_of_single rfl i q
theorem dense_rhs1 (i : S512x128.Idx) (q : dot_S512x128_S128x128_S512x128_1_0_0_1_n_n.contr.Idx) : (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

/-- The second product, the [512, 128] gathered rows against the [128, 128] dense map into a zero accumulator, read at
    row `r`, column `f`: the plain sum over the 128 contracted positions, whatever precision the product asks for. -/
theorem dense_apply (g : FVec Ideal S512x128 .f32) (w : FVec Ideal S128x128 .f32) (r : Fin 512) (f : Fin 128) :
    matmul dot_S512x128_S128x128_S512x128_1_0_0_1_n_n (some .fp32) g w (constant (F := Ideal) S512x128 .f32 0x00000000#32) (ix2 r f)
      = ∑ k : Fin 128, g (ix2 r k) * w (ix2 k f) := by
  refine (Ideal.matmul_constant_zero_apply dot_S512x128_S128x128_S512x128_1_0_0_1_n_n (some .fp32) g w (ix2 r f)).trans ?_
  rw [← Equiv.sum_comp (contrEquiv1 dot_S512x128_S128x128_S512x128_1_0_0_1_n_n 128 rfl rfl).symm]
  refine Finset.sum_congr rfl fun k _ => ?_
  have hk := contrEquiv1_symm_val dot_S512x128_S128x128_S512x128_1_0_0_1_n_n 128 rfl rfl k
  have el : dot_S512x128_S128x128_S512x128_1_0_0_1_n_n.lhsIdx (ix2 r f) ((contrEquiv1 dot_S512x128_S128x128_S512x128_1_0_0_1_n_n 128 rfl rfl).symm k) = ix2 r k := funext fun ax => Fin.ext (by
    match ax with
    | ⟨0, _⟩ => exact dense_lhs0 _ _
    | ⟨1, _⟩ => exact (dense_lhs1 _ _).trans hk)
  have er : dot_S512x128_S128x128_S512x128_1_0_0_1_n_n.rhsIdx (ix2 r f) ((contrEquiv1 dot_S512x128_S128x128_S512x128_1_0_0_1_n_n 128 rfl rfl).symm k) = ix2 k f := funext fun ax => Fin.ext (by
    match ax with
    | ⟨0, _⟩ => exact (dense_rhs0 _ _).trans hk
    | ⟨1, _⟩ => exact dense_rhs1 _ _)
  rw [el, er]

/-! ## The body's arithmetic at an index -/

/-- What the body stores, read at row `r`, column `f` of its [1, 512, 128] block, from the four loaded blocks: the
    adjacency rows `a` ([1, 512, 4096]) gather the feature table `x` ([1, 4096, 128]); the gathered row meets the dense
    map `w`; the one-row bias `β` ([1, 128]) is added to every row; the result is rectified. The casts that drop or add
    the leading unit axis only rename indices, and the change of float format before the first product is the
    identity on the extended reals. -/
theorem body_apply (a : FVec Ideal S1x512x4096 .f32) (x : FVec Ideal S1x4096x128 .f32) (w : FVec Ideal S128x128 .f32)
    (β : FVec Ideal S1x128 .f32) (u : Fin 1) (r : Fin 512) (f : Fin 128) :
    k0_pay1 (F := Ideal) a x w β (ix3 u r f)
      = max ((∑ d : Fin 128, (∑ k : Fin 4096, a (ix3 (0 : Fin 1) r k) * x (ix3 (0 : Fin 1) k d)) * w (ix2 d f))
              + β (ix2 (0 : Fin 1) f)) (Ideal.ofBits .f32 0x00000000#32) := by
  unfold k0_pay1
  refine (shapeCast_ab_1ab_apply _ shapeCasts_S512x128_S1x512x128 u r f).trans ?_
  rw [maximumf_apply, addf_apply, broadcast_apply, dense_apply, broadcastTo_1b_ab_apply, shapeCast_self]
  refine congrArg₂ max (congrArg₂ (· + ·) (Finset.sum_congr rfl fun d _ => ?_) rfl) rfl
  rw [gather_apply]
  refine congrArg (· * w (ix2 d f)) (Finset.sum_congr rfl fun k _ => ?_)
  rw [truncf_apply, truncf_apply, shapeCast_1ab_ab_apply, shapeCast_1ab_ab_apply]

end Cert.KernelIdeal.Body

end
-- ==== Proof.Blocks.lean ====
/-
  From one grid point to the whole output array. The output [4, 4096, 128] is cut into 4 × 8 blocks of 512 rows, one
  per grid point: point (b, j) computes rows 512·j … 512·j + 511 of graph `b`. At that point the body sees rows
  512·j … of graph `b`'s adjacency (full width), graph `b`'s whole feature table, the whole dense map, and the bias as
  a single row — so local row `r` of the block it stores is the layer of Proof/GraphConv.lean at node 512·j + r of
  graph `b`. Every (graph, row-block) pair is some point's, so the blocks cover the array and the array after the run
  is the layer of the argument arrays at every index.
-/
import proofs.«175395_j90323162235537_2_alg».proof.Proof.Gen.KernelIdeal.Value
import proofs.«175395_j90323162235537_2_alg».proof.Proof.Body
import proofs.«175395_j90323162235537_2_alg».proof.Proof.GraphConv
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.GraphConv (layer layerAt gathered)

variable (m : (ℓ : Loc nD τ sig) → Buf (Elt Ideal) ℓ) (ρ : Dev nD → PrngReg)

/-! ## One grid point, over variables -/

/-- If the four loaded blocks are the rows of the whole arrays that the point's position names — adjacency row `n` of
    graph `b` at local row `r`, the feature table of graph `b`, the dense map itself, the bias as its one row — then the
    value the body stores at local (r, f) is the layer at (b, n, f). -/
theorem point_eq (X : FVec Ideal S4x4096x128 .f32) (A : FVec Ideal S4x4096x4096 .f32) (W : FVec Ideal S128x128 .f32)
    (B : FVec Ideal S128 .f32)
    (a : FVec Ideal S1x512x4096 .f32) (x : FVec Ideal S1x4096x128 .f32) (w : FVec Ideal S128x128 .f32) (β : FVec Ideal S1x128 .f32)
    (b : Fin 4) (n : Fin 4096) (u : Fin 1) (r : Fin 512) (f : Fin 128)
    (ha : ∀ k : Fin 4096, a (ix3 (0 : Fin 1) r k) = A (ix3 b n k))
    (hx : ∀ (k : Fin 4096) (d : Fin 128), x (ix3 (0 : Fin 1) k d) = X (ix3 b k d))
    (hw : ∀ (d f : Fin 128), w (ix2 d f) = W (ix2 d f))
    (hβ : β (ix2 (0 : Fin 1) f) = B (ix1 f)) :
    k0_pay1 (F := Ideal) a x w β (ix3 u r f) = layerAt X A W B b n f := by
  rw [Body.body_apply]
  unfold layerAt gathered
  simp only [ha, hx, hw, hβ]

/-! ## The index maps over the grid -/

theorem hz3 : (![0, 0, 0] : Fin 3 → Nat) = fun _ => 0 := funext fun a => by fin_cases a <;> rfl
theorem hz2 : (![0, 0] : Fin 2 → Nat) = fun _ => 0 := funext fun a => by fin_cases a <;> rfl

/-- Decided over the 32 points: the adjacency block sits at the output block's graph and row-block, full width; the
    feature table at the output block's graph, whole; the dense map and the bias row are the one block of their
    arrays; the output block's graph is below 4, its row-block below 8, and it is full width. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) ≤ 3 ∧ win0_4.index t (1 : Fin 3) ≤ 7 ∧ win0_4.index t (2 : Fin 3) = 0 :=
  (by decide +kernel : ∀ t : Fin grid0.N, _)

/-- Every (graph, row-block) pair is some point's output block. -/
theorem idx_onto : ∀ (q0 : Fin 4) (q1 : Fin 8), ∃ t : Fin cfg0.N, win0_4.index t = ![q0.val, q1.val, 0] :=
  (by decide +kernel : ∀ (q0 : Fin 4) (q1 : Fin 8), ∃ t : Fin grid0.N, win0_4.index t = ![q0.val, q1.val, 0])

/-! ## The arrays the region finds, read through a point's blocks -/

/-- The one array a host operation writes before the region: the bias re-laid as a single row. -/
theorem bias_row (c : Dev nD) :
    (V m c main_v0 : S1x128.Idx → EReal) = shapeCast S1x128 (m ((c : Thread nD τ).loc main_arg3)) shapeCasts_S128_S1x128 := by
  dsimp only [Gen.V, Gen.hostOps0]; after_results; rfl

/-- Local row `r` of point `t`'s adjacency block is row `n` of graph `b`, where (b, n) is the position of local row `r`
    in the output block. -/
theorem read_adjacency (c : Dev nD) (t : Fin cfg0.N) (b : Fin 4) (n : Fin 4096) (r : Fin 512) (k : Fin 4096)
    (hb : b.val = win0_4.index t (0 : Fin 3)) (hn : n.val = win0_4.index t (1 : Fin 3) * 512 + r.val) :
    iblk m c 0 t (ix3 (0 : Fin 1) r k) = m ((c : Thread nD τ).loc main_arg1) (ix3 b n k) := by
  obtain ⟨e00, e01, e02, -⟩ := idx_facts t
  show V m c main_arg1 (((cfg0.win 0).blk t).view.emb (ix3 (0 : Fin 1) r k)) = _
  rw [V_main_arg1]
  refine congrArg _ (funext fun ax => Fin.ext ?_)
  match ax with
  | ⟨0, _⟩ => show win0_0.index t (0 : Fin 3) * 1 + 1 * 0 = b.val; omega
  | ⟨1, _⟩ => show win0_0.index t (1 : Fin 3) * 512 + 1 * r.val = n.val; omega
  | ⟨2, _⟩ => show win0_0.index t (2 : Fin 3) * 4096 + 1 * k.val = k.val; omega

/-- Point `t`'s feature block is the whole feature table of the output block's graph. -/
theorem read_features (c : Dev nD) (t : Fin cfg0.N) (b : Fin 4) (k : Fin 4096) (d : Fin 128)
    (hb : b.val = win0_4.index t (0 : Fin 3)) :
    iblk m c 1 t (ix3 (0 : Fin 1) k d) = m ((c : Thread nD τ).loc main_arg0) (ix3 b k d) := by
  obtain ⟨-, -, -, e10, e11, e12, -⟩ := idx_facts t
  show V m c main_arg0 (((cfg0.win 1).blk t).view.emb (ix3 (0 : Fin 1) k d)) = _
  rw [V_main_arg0]
  refine congrArg _ (funext fun ax => Fin.ext ?_)
  match ax with
  | ⟨0, _⟩ => show win0_1.index t (0 : Fin 3) * 1 + 1 * 0 = b.val; omega
  | ⟨1, _⟩ => show win0_1.index t (1 : Fin 3) * 4096 + 1 * k.val = k.val; omega
  | ⟨2, _⟩ => show win0_1.index t (2 : Fin 3) * 128 + 1 * d.val = d.val; omega

/-- Every point's dense-map block is the dense map. -/
theorem read_dense (c : Dev nD) (t : Fin cfg0.N) (d f : Fin 128) :
    iblk m c 2 t (ix2 d f) = m ((c : Thread nD τ).loc main_arg2) (ix2 d f) := by
  obtain ⟨-, -, -, -, -, -, e20, e21, -⟩ := idx_facts t
  show V m c main_arg2 (((cfg0.win 2).blk t).view.emb (ix2 d f)) = _
  rw [V_main_arg2]
  refine congrArg _ (funext fun ax => Fin.ext ?_)
  match ax with
  | ⟨0, _⟩ => show win0_2.index t (0 : Fin 2) * 128 + 1 * d.val = d.val; omega
  | ⟨1, _⟩ => show win0_2.index t (1 : Fin 2) * 128 + 1 * f.val = f.val; omega

/-- Every point's bias block is the bias as its one row. -/
theorem read_bias (c : Dev nD) (t : Fin cfg0.N) (f : Fin 128) :
    iblk m c 3 t (ix2 (0 : Fin 1) f) = m ((c : Thread nD τ).loc main_arg3) (ix1 f) := by
  obtain ⟨-, -, -, -, -, -, -, -, e30, e31, -⟩ := idx_facts t
  have hemb : ((cfg0.win 3).blk t).view.emb (ix2 (0 : Fin 1) f) = ix2 (0 : Fin 1) f := by
    refine funext fun ax => Fin.ext ?_
    match ax with
    | ⟨0, _⟩ => show win0_3.index t (0 : Fin 2) * 1 + 1 * 0 = 0; omega
    | ⟨1, _⟩ => show win0_3.index t (1 : Fin 2) * 128 + 1 * f.val = f.val; omega
  show (V m c main_v0 : S1x128.Idx → EReal) (((cfg0.win 3).blk t).view.emb (ix2 (0 : Fin 1) f)) = _
  rw [hemb, bias_row]
  exact shapeCast_a_1a_apply _ shapeCasts_S128_S1x128 (0 : Fin 1) f

/-! ## What a point writes back, the cover, the whole array -/

/-- What point `t` writes back is block `t` of the layer of the argument arrays. -/
theorem flushed_eq (c : Dev nD) (t : Fin cfg0.N) :
    (dats m 0 c).flushed 4 t = ((cfg0.win 4).blk t).view.read (Elt Ideal)
      (layer (m ((c : Thread nD τ).loc main_arg0)) (m ((c : Thread nD τ).loc main_arg1)) (m ((c : Thread nD τ).loc main_arg2)) (m ((c : Thread nD τ).loc main_arg3))) := by
  rw [Value.flushed4]
  unfold out0_4
  rw [View.canon_unit_zero hz3]
  simp only [View.ld_unit_zero (S := S1x512x4096) hz3, View.ld_unit_zero (S := S1x4096x128) hz3, View.ld_unit_zero (S := S128x128) hz2, View.ld_unit_zero (S := S1x128) hz2]
  funext y
  obtain ⟨u, r, f, rfl⟩ : ∃ (u : Fin 1) (r : Fin 512) (f : Fin 128), y = ix3 u r f := ⟨y 0, y 1, y 2, eq_ix3 y⟩
  obtain ⟨-, -, -, -, -, -, -, -, -, -, h40, h41, e42⟩ := idx_facts t
  have hu : u.val = 0 := by omega
  have hr : r.val < 512 := r.isLt
  have hemb : ((cfg0.win 4).blk t).view.emb (ix3 u r f)
      = ix3 (⟨win0_4.index t (0 : Fin 3), by omega⟩ : Fin 4) (⟨win0_4.index t (1 : Fin 3) * 512 + r.val, by omega⟩ : Fin 4096) f := by
    refine funext fun ax => Fin.ext ?_
    match ax with
    | ⟨0, _⟩ => show win0_4.index t (0 : Fin 3) * 1 + 1 * u.val = win0_4.index t (0 : Fin 3); omega
    | ⟨1, _⟩ => show win0_4.index t (1 : Fin 3) * 512 + 1 * r.val = win0_4.index t (1 : Fin 3) * 512 + r.val; omega
    | ⟨2, _⟩ => show win0_4.index t (2 : Fin 3) * 128 + 1 * f.val = f.val; omega
  show k0_pay1 (F := Ideal) (iblk m c 0 t) (iblk m c 1 t) (iblk m c 2 t) (iblk m c 3 t) (ix3 u r f)
    = layer (m ((c : Thread nD τ).loc main_arg0)) (m ((c : Thread nD τ).loc main_arg1)) (m ((c : Thread nD τ).loc main_arg2)) (m ((c : Thread nD τ).loc main_arg3))
        (((cfg0.win 4).blk t).view.emb (ix3 u r f))
  rw [hemb, Cert.GraphConv.layer_ix3]
  exact point_eq (m ((c : Thread nD τ).loc main_arg0)) (m ((c : Thread nD τ).loc main_arg1)) (m ((c : Thread nD τ).loc main_arg2)) (m ((c : Thread nD τ).loc main_arg3))
    (iblk m c 0 t) (iblk m c 1 t) (iblk m c 2 t) (iblk m c 3 t) _ _ u r f
    (fun k => read_adjacency m c t _ _ r k rfl rfl) (fun k d => read_features m c t _ k d rfl)
    (fun d f => read_dense m c t d f) (read_bias m c t f)

/-- An index of the output array is in point `t`'s block iff each coordinate is in the block's range on its axis. -/
theorem mem_blk (t : Fin cfg0.N) (i : S4x4096x128.Idx) :
    i ∈ ((cfg0.win 4).blk t).view.set ↔ ∀ a : Fin 3, win0_4.index t a * S1x512x128.size a ≤ (i a).val ∧ (i a).val < win0_4.index t a * S1x512x128.size a + S1x512x128.size a := by
  show i ∈ ((View.whole main_v1).slice (win0_4.rect t)).set ↔ _
  rw [View.set_slice_whole, Rect.mem_set_unit]
  exact Iff.rfl

/-- The 32 blocks cover the output: node `n` of graph `b` lies in the block of graph `b`, row-block `n / 512`. -/
theorem cover (i : S4x4096x128.Idx) : ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 128 := (i 2).isLt
  obtain ⟨t, ht⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 128 ≤ (i 2).val ∧ (i 2).val < win0_4.index t (2 : Fin 3) * 128 + 128; omega

/-- The output array after the run is the layer of the argument arrays. -/
theorem final (c : Dev nD) : (dats m 0 c).arrAt 4 cfg0.N
    = layer (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed_eq m c t) cover

/-- Every weakly fair execution of the kernel's program ends with its result at the layer of the arguments, the
    arguments unchanged. -/
theorem run : θ_run defs (onTc (τ := τ) (main (F := Ideal))) ⟨m, fun _ => 0, ρ⟩ fun r => ∀ c : Dev nD,
      r.2.mem ((c : Thread nD τ).loc main_v1)
        = layer (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Blocks

end
-- ==== Proof.RefLayer.lean ====
/-
  The reference program's result, read at one index, is the layer of Proof/GraphConv.lean. The reference forms the
  batched product of adjacency and features (contracting the 4096 neighbour positions), multiplies by the dense map
  (contracting the 128 gathered features), adds the bias broadcast over graphs and nodes, and takes the maximum with a
  zero array: operation by operation the definition of `layerAt`, once each operation's index function is written in
  coordinates.
-/
import proofs.«175395_j90323162235537_2_alg».proof.Proof.Gen.ReferenceIdeal.Read
import proofs.«175395_j90323162235537_2_alg».proof.Proof.GraphConv

noncomputable section

namespace Cert.ReferenceIdeal.RefValue

open Cert.ReferenceIdeal Cert.ReferenceIdeal.Read Idealize.ShloMosaic Idealize.ShloMosaic.ValueIdx

/-! ## The operations' index functions in coordinates -/

/-- The second product at (b, n, f) reads its left operand, the gathered features, at (b, n, d) -/
theorem lidx_v1 (b : Fin 4) (n : Fin 4096) (f d : Fin 128) : lidx_main_v1 (ix3 b n f) d = ix3 b n d :=
  funext fun a => Fin.ext (by match a with | ⟨0, _⟩ => rfl | ⟨1, _⟩ => rfl | ⟨2, _⟩ => rfl)
/-- and the dense map at (d, f). -/
theorem ridx_v1 (b : Fin 4) (n : Fin 4096) (f d : Fin 128) : ridx_main_v1 (ix3 b n f) d = ix2 d f :=
  funext fun a => Fin.ext (by match a with | ⟨0, _⟩ => rfl | ⟨1, _⟩ => rfl)
/-- The first product at (b, n, d) reads the adjacency at (b, n, k) -/
theorem lidx_v0 (b : Fin 4) (n k : Fin 4096) (d : Fin 128) : lidx_main_v0 (ix3 b n d) k = ix3 b n k :=
  funext fun a => Fin.ext (by match a with | ⟨0, _⟩ => rfl | ⟨1, _⟩ => rfl | ⟨2, _⟩ => rfl)
/-- and the features at (b, k, d). -/
theorem ridx_v0 (b : Fin 4) (n k : Fin 4096) (d : Fin 128) : ridx_main_v0 (ix3 b n d) k = ix3 b k d :=
  funext fun a => Fin.ext (by match a with | ⟨0, _⟩ => rfl | ⟨1, _⟩ => rfl | ⟨2, _⟩ => rfl)
/-- The bias, broadcast first to [1, 1, 128] and then over graphs and nodes, is read at `f`. -/
theorem idx_bias (b : Fin 4) (n : Fin 4096) (f : Fin 128) : idx_main_v2 (idx_main_v3 (ix3 b n f)) = ix1 f :=
  funext fun a => Fin.ext (by match a with | ⟨0, _⟩ => rfl)

/-! ## The reference is the layer -/

/-- The first product, read at (b, n, d), is the gathered feature. -/
theorem gathered_eq (X : FVec Ideal S4x4096x128 .f32) (A : FVec Ideal S4x4096x4096 .f32) (b : Fin 4) (n : Fin 4096) (d : Fin 128) :
    val_main_v0 (F := Ideal) X A (ix3 b n d) = Cert.GraphConv.gathered X A b n d := by
  refine (val_main_v0_apply X A (ix3 b n d)).trans ?_
  unfold Cert.GraphConv.gathered
  refine Finset.sum_congr rfl fun k _ => ?_
  rw [lidx_v0, ridx_v0]

/-- The reference's last stage is the layer, index by index. -/
theorem reference_eq_layer (X : FVec Ideal S4x4096x128 .f32) (A : FVec Ideal S4x4096x4096 .f32) (W : FVec Ideal S128x128 .f32)
    (β : FVec Ideal S128 .f32) : val_main_v5 (F := Ideal) X A W β = Cert.GraphConv.layer X A W β := by
  funext i
  obtain ⟨b, n, f, rfl⟩ : ∃ (b : Fin 4) (n : Fin 4096) (f : Fin 128), i = ix3 b n f := ⟨i 0, i 1, i 2, eq_ix3 i⟩
  rw [Cert.GraphConv.layer_ix3, val_main_v5_apply, val_main_v4_apply, val_main_v1_apply, val_main_v3_apply, val_main_v2_apply,
    val_main_call0_v0_apply, val_main_call0_cst_apply, idx_bias]
  unfold Cert.GraphConv.layerAt
  refine congrArg₂ max (congrArg₂ (· + ·) (Finset.sum_congr rfl fun d _ => ?_) rfl) rfl
  rw [lidx_v1, ridx_v1, gathered_eq]

end Cert.ReferenceIdeal.RefValue

end
-- ==== Proof.lean ====
/-
  A graph-convolution layer, `out[b,n,f] = max(∑_d (∑ₖ A[b,n,k] · X[b,k,d]) · W[d,f] + β[f], 0)`, computed two ways.
  The kernel tiles the output into 32 blocks of 512 rows and, per block, multiplies the adjacency rows by the graph's
  feature table, the result by the dense map, adds the bias and rectifies; the reference does the same three steps on
  whole arrays with a batched product. On the extended reals a change of float format is the identity and a matrix
  product into a zero accumulator is the plain finite sum of products, so both programs compute the SAME nested sum,
  term by term: no sum is reordered or redistributed, and the equality needs nothing of the inputs (the precondition
  is never opened). Proof/GraphConv.lean states the function; Proof/Body.lean reads the kernel's arithmetic at an
  index; Proof/Blocks.lean assembles the blocks into the array; Proof/RefLayer.lean reads the reference.
  The kernel's idealization rewrote no operation, so it is the kernel's own text read on the extended reals.
-/
import proofs.«175395_j90323162235537_2_alg».proof.Defs
import proofs.«175395_j90323162235537_2_alg».proof.Proof.Gen.Kernel
import proofs.«175395_j90323162235537_2_alg».proof.Proof.Gen.Kernel.Skeleton
import proofs.«175395_j90323162235537_2_alg».proof.Proof.Gen.Kernel.Launch
import proofs.«175395_j90323162235537_2_alg».proof.Proof.Gen.Kernel.Points
import proofs.«175395_j90323162235537_2_alg».proof.Proof.Gen.Kernel.Frame
import proofs.«175395_j90323162235537_2_alg».proof.Proof.Gen.KernelIdeal
import proofs.«175395_j90323162235537_2_alg».proof.Proof.Gen.KernelIdeal.Skeleton
import proofs.«175395_j90323162235537_2_alg».proof.Proof.Gen.KernelIdeal.Launch
import proofs.«175395_j90323162235537_2_alg».proof.Proof.Gen.KernelIdeal.Points
import proofs.«175395_j90323162235537_2_alg».proof.Proof.Gen.KernelIdeal.Frame
import proofs.«175395_j90323162235537_2_alg».proof.Proof.Gen.ReferenceIdeal
import proofs.«175395_j90323162235537_2_alg».proof.Proof.Gen.Pre_finite_inputs
import proofs.«175395_j90323162235537_2_alg».proof.Proof.Gen.KernelIdeal.Value
import proofs.«175395_j90323162235537_2_alg».proof.Proof.Gen.ReferenceIdeal.Run
import proofs.«175395_j90323162235537_2_alg».proof.Proof.Gen.ReferenceIdeal.Read
import proofs.«175395_j90323162235537_2_alg».proof.Proof.GraphConv
import proofs.«175395_j90323162235537_2_alg».proof.Proof.Body
import proofs.«175395_j90323162235537_2_alg».proof.Proof.Blocks
import proofs.«175395_j90323162235537_2_alg».proof.Proof.RefLayer
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a straight line of whole-array operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the layer of the argument arrays: the kernel block by block (Proof/Blocks.lean), the
    reference operation by operation (Proof/RefLayer.lean); the arguments agree, so the two results are one array. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v5_eq _ _ _ _).trans ?_
  rw [Cert.ReferenceIdeal.RefValue.reference_eq_layer, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
